-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20x1 : Shape := ⟨2, ![20, 1]⟩
abbrev S8192x256 : Shape := ⟨2, ![8192, 256]⟩
abbrev S256x20 : Shape := ⟨2, ![256, 20]⟩
abbrev S256x2048 : Shape := ⟨2, ![256, 2048]⟩
abbrev S8192 : Shape := ⟨1, ![8192]⟩
abbrev S2048x2048 : Shape := ⟨2, ![2048, 2048]⟩
abbrev S2048 : Shape := ⟨1, ![2048]⟩
abbrev S_ : Shape := ⟨0, ![]⟩

class Facts : Prop where
  bcast_S_S20x1 : S_.BroadcastsInDim S20x1 (![] : Fin 0 → Fin S20x1.rank)
  reducesTo_S20x1_S_d0_1 : S20x1.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S256x20 : S_.BroadcastsInDim S256x20 (![] : Fin 0 → Fin S256x20.rank)
  reducesTo_S256x20_S_d0_1 : S256x20.ReducesTo [0, 1] S_
  bcast_S_S256x2048 : S_.BroadcastsInDim S256x2048 (![] : Fin 0 → Fin S256x2048.rank)
  reducesTo_S256x2048_S_d0_1 : S256x2048.ReducesTo [0, 1] S_
  bcast_S_S8192 : S_.BroadcastsInDim S8192 (![] : Fin 0 → Fin S8192.rank)
  reducesTo_S8192_S_d0 : S8192.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S8192 .f32) (main_arg5 : FVec F S2048x2048 .f32) (main_arg6 : FVec F S2048 .f32) (main_v13 : IVec S_ 1) (main_v16 : IVec S256x2048 1) : IVec S_ 1 :=
  let main_c_5 : IVec S_ 1 := constantI S_ 1 1#1
  let main_v17 : IVec S_ 1 := (fun x v => Host.reduce IntOp.andi x v reducesTo_S256x2048_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S20x1 .f32) (main_arg1 : FVec F S8192x256 .f32) (main_arg2 : FVec F S256x20 .f32) (main_arg3 : FVec F S256x2048 .f32) (main_arg4 : FVec F S8192 .f32) (main_arg5 : FVec F S2048x2048 .f32) (main_arg6 : FVec F S2048 .f32) : IVec S_ 1 :=
  let main_v0 : FVec F S20x1 .f32 := Host.absf main_arg0
  let main_cst : FVec F S_ .f32 := constant S_ .f32 0x7F800000#32
  let main_v1 : FVec F S20x1 .f32 := broadcastInDim S20x1 ![] bcast_S_S20x1 main_cst
  let main_v2 : IVec S20x1 1 := cmpf .olt main_v0 main_v1
  let main_c : IVec S_ 1 := constantI S_ 1 1#1
  let main_v3 : IVec S_ 1 := (fun x v => Host.reduce IntOp.andi x v reducesTo_S20x1_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S256x20 .f32 := Host.absf main_arg2
  let main_cst_2 : FVec F S_ .f32 := constant S_ .f32 0x7F800000#32
  let main_v10 : FVec F S256x20 .f32 := broadcastInDim S256x20 ![] bcast_S_S256x20 main_cst_2
  let main_v11 : IVec S256x20 1 := cmpf .olt main_v9 main_v10
  let main_c_3 : IVec S_ 1 := constantI S_ 1 1#1
  let main_v12 : IVec S_ 1 := (fun x v => Host.reduce IntOp.andi x v reducesTo_S256x20_S_d0_1 h_S_) main_v11 main_c_3
  let main_v13 : IVec S_ 1 := andi main_v8 main_v12
  let main_v14 : FVec F S256x2048 .f32 := Host.absf main_arg3
  let main_cst_4 : FVec F S_ .f32 := constant S_ .f32 0x7F800000#32
  let main_v15 : FVec F S256x2048 .f32 := broadcastInDim S256x2048 ![] bcast_S_S256x2048 main_cst_4
  let main_v16 : IVec S256x2048 1 := cmpf .olt main_v14 main_v15
  fn_part1 (F := F) main_arg4 main_arg5 main_arg6 main_v13 main_v16
-- ==== Kernel.lean ====
abbrev S20x1 : Shape := ⟨2, ![20, 1]⟩
abbrev S8192x256 : Shape := ⟨2, ![8192, 256]⟩
abbrev S256x20 : Shape := ⟨2, ![256, 20]⟩
abbrev S256x2048 : Shape := ⟨2, ![256, 2048]⟩
abbrev S8192 : Shape := ⟨1, ![8192]⟩
abbrev S2048x2048 : Shape := ⟨2, ![2048, 2048]⟩
abbrev S2048 : Shape := ⟨1, ![2048]⟩
abbrev S256x1 : Shape := ⟨2, ![256, 1]⟩
abbrev S256 : Shape := ⟨1, ![256]⟩
abbrev S10240x2048 : Shape := ⟨2, ![10240, 2048]⟩
abbrev S512x256 : Shape := ⟨2, ![512, 256]⟩
abbrev S512x2048 : Shape := ⟨2, ![512, 2048]⟩
abbrev S10240 : Shape := ⟨1, ![10240]⟩

abbrev nBuf : Space → Nat
  | .hbm => 14
  | .vmem => 7
  | .smem => 0
  | _ => 0

abbrev bufTy : (tb : Table) → Fin (tcTables nBuf tb) → BufTy
  | .hbm, ⟨0, _⟩ => ⟨S20x1, .f32⟩
  | .hbm, ⟨1, _⟩ => ⟨S8192x256, .f32⟩
  | .hbm, ⟨2, _⟩ => ⟨S256x20, .f32⟩
  | .hbm, ⟨3, _⟩ => ⟨S256x2048, .f32⟩
  | .hbm, ⟨4, _⟩ => ⟨S8192, .f32⟩
  | .hbm, ⟨5, _⟩ => ⟨S2048x2048, .f32⟩
  | .hbm, ⟨6, _⟩ => ⟨S2048, .f32⟩
  | .hbm, ⟨7, _⟩ => ⟨S256x1, .f32⟩
  | .hbm, ⟨8, _⟩ => ⟨S256, .f32⟩
  | .hbm, ⟨9, _⟩ => ⟨S256x1, .f32⟩
  | .hbm, ⟨10, _⟩ => ⟨S256x2048, .f32⟩
  | .hbm, ⟨11, _⟩ => ⟨S256x2048, .f32⟩
  | .hbm, ⟨12, _⟩ => ⟨S10240x2048, .f32⟩
  | .hbm, ⟨13, _⟩ => ⟨S10240, .f32⟩
  | .local _ .vmem, ⟨0, _⟩ => ⟨S512x256, .f32⟩
  | .local _ .vmem, ⟨1, _⟩ => ⟨S512x256, .f32⟩
  | .local _ .vmem, ⟨2, _⟩ => ⟨S256x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S20x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256x1_S256 : S256x1.ShapeCasts S256
  bcast_S256_S256x1_0 : S256.BroadcastsInDim S256x1 (![0] : Fin 1 → Fin S256x1.rank)
  bcast_S256x1_S256x2048_0_1 : S256x1.BroadcastsInDim S256x2048 (![0, 1] : Fin 2 → Fin S256x2048.rank)
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S512x2048_S512x2048_0_0 : ∀ a, (![0, 0] : Fin 2 → Nat) a + S512x2048.size a ≤ S512x2048.size a
  h_S512x2048 : 0 < S512x2048.numel
  concatenates_S8192_S2048_S10240_d0 : Shape.Concatenates [S8192, S2048] S10240 0
  dot_S256x20_S20x1_S256x1_1_0_0_1_n_n_wf : DotDims.WF S256x20 S20x1 S256x1 [1] [0] [0] [1] [] []
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x2048.size a
  hwx0_1 : ∀ i : grid0.Coords, EltTy.bits .f32 = 32 ∨ (Rect.block (s := S256x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x2048.size a
  hwx0_2 : ∀ i : grid0.Coords, EltTy.bits .f32 = 32 ∨ (Rect.block (s := S2048x2048) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S10240x2048.size a
  hwx0_3 : ∀ i : grid0.Coords, EltTy.bits .f32 = 32 ∨ (Rect.block (s := S10240x2048) S512x2048.size (cc0_transform_3 i) (hinb0_3 i)).WholeWords (EltTy.packing .f32)

variable [Facts₀]

def dot_S256x20_S20x1_S256x1_1_0_0_1_n_n : DotDims S256x20 S20x1 S256x1 where
  lhsContracting := [1]
  rhsContracting := [0]
  lhsNonContracting := [0]
  rhsNonContracting := [1]
  lhsBatch := []
  rhsBatch := []
  wf := dot_S256x20_S20x1_S256x1_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_arg1) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S20x1 : Shape := ⟨2, ![20, 1]⟩
abbrev S8192x256 : Shape := ⟨2, ![8192, 256]⟩
abbrev S256x20 : Shape := ⟨2, ![256, 20]⟩
abbrev S256x2048 : Shape := ⟨2, ![256, 2048]⟩
abbrev S8192 : Shape := ⟨1, ![8192]⟩
abbrev S2048x2048 : Shape := ⟨2, ![2048, 2048]⟩
abbrev S2048 : Shape := ⟨1, ![2048]⟩
abbrev S256x1 : Shape := ⟨2, ![256, 1]⟩
abbrev S256 : Shape := ⟨1, ![256]⟩
abbrev S1x256 : Shape := ⟨2, ![1, 256]⟩
abbrev S8192x2048 : Shape := ⟨2, ![8192, 2048]⟩
abbrev S10240x2048 : Shape := ⟨2, ![10240, 2048]⟩
abbrev S10240 : Shape := ⟨1, ![10240]⟩

abbrev nBuf : Space → Nat
  | .hbm => 15
  | .vmem => 0
  | .smem => 0
  | _ => 0

abbrev bufTy : (tb : Table) → Fin (tcTables nBuf tb) → BufTy
  | .hbm, ⟨0, _⟩ => ⟨S20x1, .f32⟩
  | .hbm, ⟨1, _⟩ => ⟨S8192x256, .f32⟩
  | .hbm, ⟨2, _⟩ => ⟨S256x20, .f32⟩
  | .hbm, ⟨3, _⟩ => ⟨S256x2048, .f32⟩
  | .hbm, ⟨4, _⟩ => ⟨S8192, .f32⟩
  | .hbm, ⟨5, _⟩ => ⟨S2048x2048, .f32⟩
  | .hbm, ⟨6, _⟩ => ⟨S2048, .f32⟩
  | .hbm, ⟨7, _⟩ => ⟨S256x1, .f32⟩
  | .hbm, ⟨8, _⟩ => ⟨S256, .f32⟩
  | .hbm, ⟨9, _⟩ => ⟨S1x256, .f32⟩
  | .hbm, ⟨10, _⟩ => ⟨S8192x256, .f32⟩
  | .hbm, ⟨11, _⟩ => ⟨S8192x256, .f32⟩
  | .hbm, ⟨12, _⟩ => ⟨S8192x2048, .f32⟩
  | .hbm, ⟨13, _⟩ => ⟨S10240x2048, .f32⟩
  | .hbm, ⟨14, _⟩ => ⟨S10240, .f32⟩
  | _, _ => ⟨S20x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  shapeCasts_S256x1_S256 : S256x1.ShapeCasts S256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  concatenates_S8192x2048_S2048x2048_S10240x2048_d0 : Shape.Concatenates [S8192x2048, S2048x2048] S10240x2048 0
  concatenates_S8192_S2048_S10240_d0 : Shape.Concatenates [S8192, S2048] S10240 0
  dot_S256x20_S20x1_S256x1_1_0_0_1_n_n_wf : DotDims.WF S256x20 S20x1 S256x1 [1] [0] [0] [1] [] []
  dot_S8192x256_S256x2048_S8192x2048_1_0_0_1_n_n_wf : DotDims.WF S8192x256 S256x2048 S8192x2048 [1] [0] [0] [1] [] []

variable [Facts₀]

def dot_S256x20_S20x1_S256x1_1_0_0_1_n_n : DotDims S256x20 S20x1 S256x1 where
  lhsContracting := [1]
  rhsContracting := [0]
  lhsNonContracting := [0]
  rhsNonContracting := [1]
  lhsBatch := []
  rhsBatch := []
  wf := dot_S256x20_S20x1_S256x1_1_0_0_1_n_n_wf
def dot_S8192x256_S256x2048_S8192x2048_1_0_0_1_n_n : DotDims S8192x256 S256x2048 S8192x2048 where
  lhsContracting := [1]
  rhsContracting := [0]
  lhsNonContracting := [0]
  rhsNonContracting := [1]
  lhsBatch := []
  rhsBatch := []
  wf := dot_S8192x256_S256x2048_S8192x2048_1_0_0_1_n_n_wf

class Facts : Prop extends Facts₀ where

variable [Facts]
-- ==== Proof.Spec.lean ====
/-
  The result both programs compute, as one function of the argument arrays over the extended reals.

  Write `s k = ∑ j, B (k, j) * tag (j, 0)` for the 256 scale factors. The first result is the 10240 × 2048 array
  whose row `r < 8192` holds `∑ k, A (r, k) * (s k * C (k, n))` in column `n`, and whose row `r ≥ 8192` is row
  `r - 8192` of the individual weight. The same sum with the factors grouped the other way,
  `∑ k, (A (r, k) * s k) * C (k, n)`, is equal to it term by term: multiplication of extended reals is associative,
  at the infinities too, so nothing about the entries being finite is used.
-/
import Idealize.ShloMosaic.PureOps.Ideal
import Idealize.ShloMosaic.Lib.ValueIdx

noncomputable section

namespace Cert.Spec

open Idealize.ShloMosaic Idealize.ShloMosaic.ValueIdx

/-- The scale factor `s k`: row `k` of `B` against the one column of the tag. -/
def scale (tag : (⟨2, ![20, 1]⟩ : Shape).Idx → EReal) (B : (⟨2, ![256, 20]⟩ : Shape).Idx → EReal) (k : Fin 256) : EReal :=
  ∑ j : Fin 20, B (ix2 k j) * tag (ix2 j (0 : Fin 1))

/-- Entry `(r, n)` of the shared rows: row `r` of `A` against column `n` of `C` with row `k` of `C` scaled by `s k`. -/
def shared (tag : (⟨2, ![20, 1]⟩ : Shape).Idx → EReal) (A : (⟨2, ![8192, 256]⟩ : Shape).Idx → EReal)
    (B : (⟨2, ![256, 20]⟩ : Shape).Idx → EReal) (C : (⟨2, ![256, 2048]⟩ : Shape).Idx → EReal) (r : Fin 8192) (n : Fin 2048) : EReal :=
  ∑ k : Fin 256, A (ix2 r k) * (scale tag B k * C (ix2 k n))

/-- The first result: the shared rows on top of the individual weight's rows. -/
def weights (tag : (⟨2, ![20, 1]⟩ : Shape).Idx → EReal) (A : (⟨2, ![8192, 256]⟩ : Shape).Idx → EReal)
    (B : (⟨2, ![256, 20]⟩ : Shape).Idx → EReal) (C : (⟨2, ![256, 2048]⟩ : Shape).Idx → EReal)
    (IW : (⟨2, ![2048, 2048]⟩ : Shape).Idx → EReal) : (⟨2, ![10240, 2048]⟩ : Shape).Idx → EReal := fun i =>
  if h : (i 0).val < 8192 then shared tag A B C ⟨(i 0).val, h⟩ ⟨(i 1).val, idx2_lt1 i⟩
  else IW (ix2 (⟨(i 0).val - 8192, by have := idx2_lt0 i; omega⟩ : Fin 2048) (⟨(i 1).val, idx2_lt1 i⟩ : Fin 2048))

/-- At an index in the first 8192 rows the result is the shared entry at the same coordinates. -/
theorem weights_shared (tag : (⟨2, ![20, 1]⟩ : Shape).Idx → EReal) (A : (⟨2, ![8192, 256]⟩ : Shape).Idx → EReal)
    (B : (⟨2, ![256, 20]⟩ : Shape).Idx → EReal) (C : (⟨2, ![256, 2048]⟩ : Shape).Idx → EReal)
    (IW : (⟨2, ![2048, 2048]⟩ : Shape).Idx → EReal) (i : (⟨2, ![10240, 2048]⟩ : Shape).Idx) (r : Fin 8192) (n : Fin 2048)
    (hr : (i 0).val = r.val) (hn : (i 1).val = n.val) : weights tag A B C IW i = shared tag A B C r n := by
  have h : (i 0).val < 8192 := by have := r.isLt; omega
  have e1 : (⟨(i 0).val, h⟩ : Fin 8192) = r := Fin.ext hr
  have e2 : (⟨(i 1).val, idx2_lt1 i⟩ : Fin 2048) = n := Fin.ext hn
  unfold weights
  rw [dif_pos h, e1, e2]

/-- At an index in the last 2048 rows the result is the individual weight 8192 rows higher up. -/
theorem weights_individual (tag : (⟨2, ![20, 1]⟩ : Shape).Idx → EReal) (A : (⟨2, ![8192, 256]⟩ : Shape).Idx → EReal)
    (B : (⟨2, ![256, 20]⟩ : Shape).Idx → EReal) (C : (⟨2, ![256, 2048]⟩ : Shape).Idx → EReal)
    (IW : (⟨2, ![2048, 2048]⟩ : Shape).Idx → EReal) (i : (⟨2, ![10240, 2048]⟩ : Shape).Idx) (r : Fin 2048) (n : Fin 2048)
    (hr : (i 0).val = r.val + 8192) (hn : (i 1).val = n.val) : weights tag A B C IW i = IW (ix2 r n) := by
  have h : ¬(i 0).val < 8192 := by omega
  have e1 : (⟨(i 0).val - 8192, by have := idx2_lt0 i; omega⟩ : Fin 2048) = r := Fin.ext (by show (i 0).val - 8192 = r.val; omega)
  have e2 : (⟨(i 1).val, idx2_lt1 i⟩ : Fin 2048) = n := Fin.ext hn
  unfold weights
  rw [dif_neg h, e1, e2]

/-- The shared entry with each term's three factors grouped the other way: the same extended real. -/
theorem shared_assoc (tag : (⟨2, ![20, 1]⟩ : Shape).Idx → EReal) (A : (⟨2, ![8192, 256]⟩ : Shape).Idx → EReal)
    (B : (⟨2, ![256, 20]⟩ : Shape).Idx → EReal) (C : (⟨2, ![256, 2048]⟩ : Shape).Idx → EReal) (r : Fin 8192) (n : Fin 2048) :
    shared tag A B C r n = ∑ k : Fin 256, (A (ix2 r k) * scale tag B k) * C (ix2 k n) :=
  Finset.sum_congr rfl fun k _ => (mul_assoc _ _ _).symm

end Cert.Spec

end
-- ==== Proof.BlockProduct.lean ====
/-
  The body's matrix product at an index. At a point of the first sixteen the body stores the product of its
  512 × 256 block of `A` with the whole 256 × 2048 scaled operand, accumulated into zero. Over the extended reals
  the two roundings to the narrow format are the identity and the zero accumulator adds nothing, so entry `(p, q)`
  of what is stored is `∑ k, x (p, k) * y (k, q)` over the 256 values of the contracted axis.
-/
import proofs.«122061_j28570122453321_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockProduct

open Cert.KernelIdeal Cert.KernelIdeal.Gen Idealize.ShloMosaic Idealize.ShloMosaic.ValueIdx

/-- The left operand's index at output index `i` and contraction index `q`: the output's row … -/
theorem lhs_row (i : S512x2048.Idx) (q : dot_S512x256_S256x2048_S512x2048_1_0_0_1_n_n.contr.Idx) :
    (dot_S512x256_S256x2048_S512x2048_1_0_0_1_n_n.lhsIdx i q 0).val = (i 0).val := by
  unfold DotDims.lhsIdx
  rw [dif_neg (show ¬(0 : Fin S512x256.rank) ∈ dot_S512x256_S256x2048_S512x2048_1_0_0_1_n_n.lhsBatch by decide), dif_pos (show (0 : Fin S512x256.rank) ∈ dot_S512x256_S256x2048_S512x2048_1_0_0_1_n_n.lhsNonContracting by decide)]
  rfl
/-- … and the contracted coordinate. -/
theorem lhs_col (i : S512x2048.Idx) (q : dot_S512x256_S256x2048_S512x2048_1_0_0_1_n_n.contr.Idx) :
    (dot_S512x256_S256x2048_S512x2048_1_0_0_1_n_n.lhsIdx i q 1).val = (q ⟨0, by decide⟩).val :=
  dot_S512x256_S256x2048_S512x2048_1_0_0_1_n_n.lhsIdx_val_of_single rfl i q
/-- The right operand's index: the contracted coordinate … -/
theorem rhs_row (i : S512x2048.Idx) (q : dot_S512x256_S256x2048_S512x2048_1_0_0_1_n_n.contr.Idx) :
    (dot_S512x256_S256x2048_S512x2048_1_0_0_1_n_n.rhsIdx i q 0).val = (q ⟨0, by decide⟩).val :=
  dot_S512x256_S256x2048_S512x2048_1_0_0_1_n_n.rhsIdx_val_of_single rfl i q
/-- … and the output's column. -/
theorem rhs_col (i : S512x2048.Idx) (q : dot_S512x256_S256x2048_S512x2048_1_0_0_1_n_n.contr.Idx) :
    (dot_S512x256_S256x2048_S512x2048_1_0_0_1_n_n.rhsIdx i q 1).val = (i 1).val := by
  unfold DotDims.rhsIdx
  rw [dif_neg (show ¬(1 : Fin S256x2048.rank) ∈ dot_S512x256_S256x2048_S512x2048_1_0_0_1_n_n.rhsBatch by decide), dif_pos (show (1 : Fin S256x2048.rank) ∈ dot_S512x256_S256x2048_S512x2048_1_0_0_1_n_n.rhsNonContracting by decide)]
  rfl

/-- Entry `(p, q)` of the stored product is the sum over `k` of `x (p, k) * y (k, q)`. -/
theorem product_apply (x : Vec Ideal S512x256 .f32) (y : Vec Ideal S256x2048 .f32) (p : Fin 512) (q : Fin 2048) :
    k0_pay1 (F := Ideal) x y (ix2 p q) = ∑ k : Fin 256, x (ix2 p k) * y (ix2 k q) := by
  unfold k0_pay1
  refine (Ideal.matmul_constant_zero_apply dot_S512x256_S256x2048_S512x2048_1_0_0_1_n_n none _ _ (ix2 p q)).trans ?_
  rw [← Equiv.sum_comp (contrEquiv1 dot_S512x256_S256x2048_S512x2048_1_0_0_1_n_n 256 rfl rfl).symm]
  refine Finset.sum_congr rfl fun k _ => ?_
  have hk := contrEquiv1_symm_val dot_S512x256_S256x2048_S512x2048_1_0_0_1_n_n 256 rfl rfl k
  have el : dot_S512x256_S256x2048_S512x2048_1_0_0_1_n_n.lhsIdx (ix2 p q) ((contrEquiv1 dot_S512x256_S256x2048_S512x2048_1_0_0_1_n_n 256 rfl rfl).symm k) = ix2 p k := funext fun a => Fin.ext (by
    match a with
    | ⟨0, _⟩ => exact lhs_row _ _
    | ⟨1, _⟩ => exact (lhs_col _ _).trans hk)
  have er : dot_S512x256_S256x2048_S512x2048_1_0_0_1_n_n.rhsIdx (ix2 p q) ((contrEquiv1 dot_S512x256_S256x2048_S512x2048_1_0_0_1_n_n 256 rfl rfl).symm k) = ix2 k q := funext fun a => Fin.ext (by
    match a with
    | ⟨0, _⟩ => exact (rhs_row _ _).trans hk
    | ⟨1, _⟩ => exact rhs_col _ _)
  rw [el, er, truncf_apply, truncf_apply, shapeCast_self]

end Cert.KernelIdeal.BlockProduct

end
-- ==== Proof.PointContents.lean ====
/-
  What one grid point leaves in the output's block, for any float values. The twenty points are of two kinds. A point
  of the first sixteen loads its block of `A` and the scaled operand and stores, over the whole block, their matrix
  product; a point of the last four loads its block of the individual weight and stores it, over the whole block,
  unchanged. In both kinds the one store covers the block, so what the block held before does not matter (the body
  also loads the output block, and uses nothing of it).
-/
import proofs.«122061_j28570122453321_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.PointContents

open Cert.KernelIdeal Cert.KernelIdeal.Gen

variable {F : FTy → Type} [FloatOps F]

/-- The origin of a rank-2 block. -/
theorem origin : (![0, 0] : Fin 2 → Nat) = fun _ => 0 := funext fun a => by fin_cases a <;> rfl

/-- A point of the first sixteen leaves the product of its two loaded blocks. -/
theorem product_point (c : Dev nD) (i : grid0.Coords) (a1 : Memref sig .tc .vmem S512x256 .f32) (h1 : a1.IsWhole)
    (a2 : Memref sig .tc .vmem S256x2048 .f32) (h2 : a2.IsWhole) (a3 : Memref sig .tc .vmem S512x2048 .f32) (h3 : a3.IsWhole)
    (a4 : Memref sig .tc .vmem S512x2048 .f32) (h4 : a4.IsWhole) (hc0 : cond0_0 i) (hc1 : ¬cond0_1 i)
    (x0 : Vec F S512x256 .f32) (x1 : Vec F S256x2048 .f32) (x2 : Vec F S512x2048 .f32) :
    out0_A_3 c i a1 h1 a2 h2 a3 h3 a4 h4 hc0 hc1 x0 x1 x2 = k0_pay1 x0 x1 := by
  unfold out0_A_3
  rw [View.read_writes_eq_canon _ _ _ (cover0_A_3 c i a1 h1 a2 h2 a3 h3 a4 h4 hc0 hc1 x0 x1 x2)]
  unfold kernelRun0_A
  dsimp only
  rw [View.canon_unit_zero origin]
  simp only [View.readAt_eq_ld, h1.read_unread, h2.read_unread, View.ld_unit_zero (S := S512x256) origin,
    View.ld_unit_zero (S := S256x2048) origin]

/-- A point of the last four leaves its loaded block of the individual weight. -/
theorem copy_point (c : Dev nD) (i : grid0.Coords) (a1 : Memref sig .tc .vmem S512x256 .f32) (h1 : a1.IsWhole)
    (a2 : Memref sig .tc .vmem S256x2048 .f32) (h2 : a2.IsWhole) (a3 : Memref sig .tc .vmem S512x2048 .f32) (h3 : a3.IsWhole)
    (a4 : Memref sig .tc .vmem S512x2048 .f32) (h4 : a4.IsWhole) (hc0 : ¬cond0_0 i) (hc1 : cond0_1 i)
    (x0 : Vec F S512x256 .f32) (x1 : Vec F S256x2048 .f32) (x2 : Vec F S512x2048 .f32) :
    out0_B_3 c i a1 h1 a2 h2 a3 h3 a4 h4 hc0 hc1 x0 x1 x2 = x2 := by
  unfold out0_B_3
  rw [View.read_writes_eq_canon _ _ _ (cover0_B_3 c i a1 h1 a2 h2 a3 h3 a4 h4 hc0 hc1 x0 x1 x2)]
  unfold kernelRun0_B
  dsimp only
  rw [View.canon_unit_zero origin]
  simp only [View.readAt_eq_ld, h3.read_unread, View.ld_unit_zero (S := S512x2048) origin]

end Cert.KernelIdeal.PointContents

end
-- ==== Proof.ScaledOperand.lean ====
/-
  The kernel's second operand as the call finds it. Before the call the host computes the 256 scale factors
  `s k = ∑ j, B (k, j) * tag (j, 0)` (a product with the tag's one column, read as a vector), lays them out as a
  column, repeats the column along the 2048 lanes and multiplies by `C` entry by entry: entry `(k, n)` of what it
  hands to the call is `s k * C (k, n)`.
-/
import proofs.«122061_j28570122453321_2_alg».proof.Proof.Gen.KernelIdeal.Frame.Runs
import proofs.«122061_j28570122453321_2_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

open Idealize.ShloMosaic Idealize.ShloMosaic.TcCoe Idealize.SL.Sem Idealize.ShloMosaic.ValueIdx

namespace Cert.KernelIdeal.ScaledOperand

open Cert.KernelIdeal Cert.KernelIdeal.Gen

/-- The host's operations before the call, composed: the operand as a function of the tag, `B` and `C`. -/
def scaled (x0 : FVec Ideal S20x1 .f32) (x2 : FVec Ideal S256x20 .f32) (x3 : FVec Ideal S256x2048 .f32) : FVec Ideal S256x2048 .f32 :=
  mulf (broadcastInDim S256x2048 ![0, 1] bcast_S256x1_S256x2048_0_1 (broadcastInDim S256x1 ![0] bcast_S256_S256x1_0
    (shapeCast S256 (Host.dotGeneral (F := Ideal) dot_S256x20_S20x1_S256x1_1_0_0_1_n_n none x2 x0) shapeCasts_S256x1_S256))) x3

/-- The left operand's index of the small product at output index `i` and contraction index `q`: the output's row … -/
theorem lhs_row (i : S256x1.Idx) (q : dot_S256x20_S20x1_S256x1_1_0_0_1_n_n.contr.Idx) : (dot_S256x20_S20x1_S256x1_1_0_0_1_n_n.lhsIdx i q 0).val = (i 0).val := by
  unfold DotDims.lhsIdx
  rw [dif_neg (show ¬(0 : Fin S256x20.rank) ∈ dot_S256x20_S20x1_S256x1_1_0_0_1_n_n.lhsBatch by decide), dif_pos (show (0 : Fin S256x20.rank) ∈ dot_S256x20_S20x1_S256x1_1_0_0_1_n_n.lhsNonContracting by decide)]
  rfl
/-- … and the contracted coordinate. -/
theorem lhs_col (i : S256x1.Idx) (q : dot_S256x20_S20x1_S256x1_1_0_0_1_n_n.contr.Idx) : (dot_S256x20_S20x1_S256x1_1_0_0_1_n_n.lhsIdx i q 1).val = (q ⟨0, by decide⟩).val :=
  dot_S256x20_S20x1_S256x1_1_0_0_1_n_n.lhsIdx_val_of_single rfl i q
/-- The right operand's index: the contracted coordinate … -/
theorem rhs_row (i : S256x1.Idx) (q : dot_S256x20_S20x1_S256x1_1_0_0_1_n_n.contr.Idx) : (dot_S256x20_S20x1_S256x1_1_0_0_1_n_n.rhsIdx i q 0).val = (q ⟨0, by decide⟩).val :=
  dot_S256x20_S20x1_S256x1_1_0_0_1_n_n.rhsIdx_val_of_single rfl i q
/-- … and the output's one column. -/
theorem rhs_col (i : S256x1.Idx) (q : dot_S256x20_S20x1_S256x1_1_0_0_1_n_n.contr.Idx) : (dot_S256x20_S20x1_S256x1_1_0_0_1_n_n.rhsIdx i q 1).val = (i 1).val := by
  unfold DotDims.rhsIdx
  rw [dif_neg (show ¬(1 : Fin S20x1.rank) ∈ dot_S256x20_S20x1_S256x1_1_0_0_1_n_n.rhsBatch by decide), dif_pos (show (1 : Fin S20x1.rank) ∈ dot_S256x20_S20x1_S256x1_1_0_0_1_n_n.rhsNonContracting by decide)]
  rfl

/-- Entry `k` of the column the small product leaves is the scale factor `s k`. -/
theorem factor_apply (x0 : FVec Ideal S20x1 .f32) (x2 : FVec Ideal S256x20 .f32) (k : Fin 256) :
    Host.dotGeneral (F := Ideal) dot_S256x20_S20x1_S256x1_1_0_0_1_n_n none x2 x0 (ix2 k (0 : Fin 1)) = Cert.Spec.scale x0 x2 k := by
  simp only [Host.dotGeneral]
  refine (Ideal.dotGeneral_apply dot_S256x20_S20x1_S256x1_1_0_0_1_n_n none _ x2 x0 (ix2 k (0 : Fin 1))).trans ?_
  rw [← Equiv.sum_comp (contrEquiv1 dot_S256x20_S20x1_S256x1_1_0_0_1_n_n 20 rfl rfl).symm]
  unfold Cert.Spec.scale
  refine Finset.sum_congr rfl fun j _ => ?_
  have hj := contrEquiv1_symm_val dot_S256x20_S20x1_S256x1_1_0_0_1_n_n 20 rfl rfl j
  have el : dot_S256x20_S20x1_S256x1_1_0_0_1_n_n.lhsIdx (ix2 k (0 : Fin 1)) ((contrEquiv1 dot_S256x20_S20x1_S256x1_1_0_0_1_n_n 20 rfl rfl).symm j) = ix2 k j := funext fun a => Fin.ext (by
    match a with
    | ⟨0, _⟩ => exact lhs_row _ _
    | ⟨1, _⟩ => exact (lhs_col _ _).trans hj)
  have er : dot_S256x20_S20x1_S256x1_1_0_0_1_n_n.rhsIdx (ix2 k (0 : Fin 1)) ((contrEquiv1 dot_S256x20_S20x1_S256x1_1_0_0_1_n_n 20 rfl rfl).symm j) = ix2 j (0 : Fin 1) := funext fun a => Fin.ext (by
    match a with
    | ⟨0, _⟩ => exact (rhs_row _ _).trans hj
    | ⟨1, _⟩ => exact rhs_col _ _)
  rw [el, er]

/-- Entry `(k, n)` of the operand is `s k * C (k, n)`. -/
theorem scaled_apply (x0 : FVec Ideal S20x1 .f32) (x2 : FVec Ideal S256x20 .f32) (x3 : FVec Ideal S256x2048 .f32) (k : Fin 256) (n : Fin 2048) :
    scaled x0 x2 x3 (ix2 k n) = Cert.Spec.scale x0 x2 k * x3 (ix2 k n) := by
  unfold scaled
  rw [mulf_apply]
  refine congrArg (· * x3 (ix2 k n)) ?_
  refine (broadcastInDim_apply _ bcast_S256x1_S256x2048_0_1 _ (ix2 k n) (ix2 k (0 : Fin 1)) (fun a => by
    match a with
    | ⟨0, _⟩ => show k.val = if (256 : Nat) = 1 then 0 else k.val; rw [if_neg (by decide)]
    | ⟨1, _⟩ => show 0 = if (1 : Nat) = 1 then 0 else n.val; rw [if_pos rfl])).trans ?_
  refine (broadcastInDim_apply _ bcast_S256_S256x1_0 _ (ix2 k (0 : Fin 1)) (ix1 k) (fun a => by
    match a with
    | ⟨0, _⟩ => show k.val = if (256 : Nat) = 1 then 0 else k.val; rw [if_neg (by decide)])).trans ?_
  refine (shapeCast_apply _ shapeCasts_S256x1_S256 (ix1 k) (ix2 k (0 : Fin 1)) (by
    rewrite [Shape.rowMajor_val_two, Shape.rowMajor_val_one]; show k.val * 1 + 0 = k.val; omega)).trans ?_
  exact factor_apply x0 x2 k

variable (m : (ℓ : Loc nD τ sig) → Buf (Elt Ideal) ℓ)

/-- The call's second array, as the call finds it, is that operand of the launch contents of the tag, `B` and `C`. -/
theorem operand_eq (c : Dev nD) :
    (V m c main_v4 : S256x2048.Idx → EReal) = scaled (m ((c : Thread nD τ).loc main_arg0)) (m ((c : Thread nD τ).loc main_arg2)) (m ((c : Thread nD τ).loc main_arg3)) := by
  show StableHlo.after hostOps0 (fun b => m (c, b)) (Proc.devRef .tc main_v4) = _
  after_results
  rfl

end Cert.KernelIdeal.ScaledOperand

end
-- ==== Proof.Blocks.lean ====
/-
  From the twenty written-back blocks to the whole first result. Point `t` writes back rows `512 t … 512 t + 511`,
  all 2048 columns. At `t < 16` it read rows `512 t …` of `A` and the whole scaled operand, so entry `(p, n)` of
  its block is `∑ k, A (512 t + p, k) * (s k * C (k, n))`: the shared entry of row `512 t + p < 8192`. At `t ≥ 16` it
  read rows `512 (t - 16) …` of the individual weight, so the entry is the individual weight at row
  `512 t + p - 8192`. Either way the block is the specified array read through the block's rectangle; the twenty
  rectangles cover the 10240 rows (row `r` lies in block `r / 512`), so the array ends at the specified one.
-/
import proofs.«122061_j28570122453321_2_alg».proof.Proof.Gen.KernelIdeal.Frame
import proofs.«122061_j28570122453321_2_alg».proof.Proof.Spec
import proofs.«122061_j28570122453321_2_alg».proof.Proof.BlockProduct
import proofs.«122061_j28570122453321_2_alg».proof.Proof.PointContents
import proofs.«122061_j28570122453321_2_alg».proof.Proof.ScaledOperand
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

/-- The specified first result, of the launch contents of the arguments on core `c`. -/
abbrev result (c : Dev nD) : S10240x2048.Idx → EReal :=
  Cert.Spec.weights (m ((c : Thread nD τ).loc main_arg0)) (m ((c : Thread nD τ).loc main_arg1)) (m ((c : Thread nD τ).loc main_arg2))
    (m ((c : Thread nD τ).loc main_arg3)) (m ((c : Thread nD τ).loc main_arg5))

/-- The four block index maps over the grid: the output's block row is the point; `A`'s is the point while it is
    below 16; the individual weight's is the point less 16 from 16 on; every block column, and the scaled operand's
    block row, is 0. -/
theorem index_facts : ∀ t : Fin cfg0.N,
    win0_3.index t (0 : Fin 2) = t.val ∧ win0_3.index t (1 : Fin 2) = 0
    ∧ win0_1.index t (0 : Fin 2) = 0 ∧ win0_1.index t (1 : Fin 2) = 0
    ∧ win0_0.index t (1 : Fin 2) = 0 ∧ win0_2.index t (1 : Fin 2) = 0
    ∧ (t.val < 16 → win0_0.index t (0 : Fin 2) = t.val)
    ∧ (16 ≤ t.val → win0_2.index t (0 : Fin 2) + 16 = t.val) :=
  (by decide +kernel : ∀ t : Fin grid0.N, _)

/-- Entry `(p, k)` of `A`'s block at a point `t < 16` is `A (512 t + p, k)`. -/
theorem blockA_apply (c : Dev nD) (t : Fin cfg0.N) (ht : t.val < 16) (p : Fin 512) (k : Fin 256) (r : Fin 8192)
    (hr : r.val = t.val * 512 + p.val) :
    (iblk m c 0 t : Vec Ideal S512x256 .f32) (ix2 p k) = m ((c : Thread nD τ).loc main_arg1) (ix2 r k) := by
  obtain ⟨-, -, -, -, e01, -, e00, -⟩ := index_facts t
  refine Eq.trans ?_ (congrFun (V_main_arg1 m c) (ix2 r k))
  show V m c main_arg1 (((cfg0.win 0).blk t).view.emb (ix2 p k)) = V m c main_arg1 (ix2 r k)
  refine congrArg (V m c main_arg1) (funext fun a => Fin.ext ?_)
  match a with
  | ⟨0, _⟩ => show win0_0.index t (0 : Fin 2) * 512 + 1 * p.val = r.val; rw [e00 ht]; omega
  | ⟨1, _⟩ => show win0_0.index t (1 : Fin 2) * 256 + 1 * k.val = k.val; rw [e01]; omega

/-- Entry `(k, n)` of the scaled operand's block, at any point, is `s k * C (k, n)`. -/
theorem blockC_apply (c : Dev nD) (t : Fin cfg0.N) (k : Fin 256) (n : Fin 2048) :
    (iblk m c 1 t : Vec Ideal S256x2048 .f32) (ix2 k n)
      = Cert.Spec.scale (m ((c : Thread nD τ).loc main_arg0)) (m ((c : Thread nD τ).loc main_arg2)) k * m ((c : Thread nD τ).loc main_arg3) (ix2 k n) := by
  obtain ⟨-, -, e10, e11, -, -, -, -⟩ := index_facts t
  refine Eq.trans ?_ ((congrFun (ScaledOperand.operand_eq m c) (ix2 k n)).trans (ScaledOperand.scaled_apply _ _ _ k n))
  show V m c main_v4 (((cfg0.win 1).blk t).view.emb (ix2 k n)) = V m c main_v4 (ix2 k n)
  refine congrArg (V m c main_v4) (funext fun a => Fin.ext ?_)
  match a with
  | ⟨0, _⟩ => show win0_1.index t (0 : Fin 2) * 256 + 1 * k.val = k.val; rw [e10]; omega
  | ⟨1, _⟩ => show win0_1.index t (1 : Fin 2) * 2048 + 1 * n.val = n.val; rw [e11]; omega

/-- Entry `(p, n)` of the individual weight's block at a point `t ≥ 16` is the individual weight at row `512 t + p - 8192`. -/
theorem blockW_apply (c : Dev nD) (t : Fin cfg0.N) (ht : 16 ≤ t.val) (p : Fin 512) (n : Fin 2048) (r : Fin 2048)
    (hr : r.val + 8192 = t.val * 512 + p.val) :
    (iblk m c 2 t : Vec Ideal S512x2048 .f32) (ix2 p n) = m ((c : Thread nD τ).loc main_arg5) (ix2 r n) := by
  obtain ⟨-, -, -, -, -, e21, -, e20⟩ := index_facts t
  refine Eq.trans ?_ (congrFun (V_main_arg5 m c) (ix2 r n))
  show V m c main_arg5 (((cfg0.win 2).blk t).view.emb (ix2 p n)) = V m c main_arg5 (ix2 r n)
  refine congrArg (V m c main_arg5) (funext fun a => Fin.ext ?_)
  match a with
  | ⟨0, _⟩ => show win0_2.index t (0 : Fin 2) * 512 + 1 * p.val = r.val; have := e20 ht; omega
  | ⟨1, _⟩ => show win0_2.index t (1 : Fin 2) * 2048 + 1 * n.val = n.val; rw [e21]; omega

/-- The specified array read through the output's block at `t`, entry `(p, n)`: the array at `(512 t + p, n)`. -/
theorem result_block_apply (c : Dev nD) (t : Fin cfg0.N) (p : Fin 512) (n : Fin 2048) (i : S10240x2048.Idx)
    (h0 : (i 0).val = t.val * 512 + p.val) (h1 : (i 1).val = n.val) :
    ((cfg0.win 3).blk t).view.read (Elt Ideal) (result m c) (ix2 p n) = result m c i := by
  obtain ⟨e30, e31, -, -, -, -, -, -⟩ := index_facts t
  show result m c (((cfg0.win 3).blk t).view.emb (ix2 p n)) = result m c i
  refine congrArg (result m c) (funext fun a => Fin.ext ?_)
  match a with
  | ⟨0, _⟩ => show win0_3.index t (0 : Fin 2) * 512 + 1 * p.val = (i 0).val; rw [e30]; omega
  | ⟨1, _⟩ => show win0_3.index t (1 : Fin 2) * 2048 + 1 * n.val = (i 1).val; rw [e31]; omega

/-- What point `t` writes back is the specified array read through its block. -/
theorem flushed_eq (c : Dev nD) (t : Fin cfg0.N) :
    (dats m 0 c).flushed 3 t = ((cfg0.win 3).blk t).view.read (Elt Ideal) (result m c) := by
  have hN : t.val < 20 := lt_of_lt_of_eq t.isLt (show cfg0.N = 20 from N_0)
  show (cfg0.win 3).cut (grid0.coords t) ((dats m 0 c).after 3 t) = _
  rw [after0_3]
  by_cases h0 : t.val < 16
  · rw [outsAt0_A m c t h0 (by omega), PointContents.product_point]
    funext j
    obtain ⟨p, n, rfl⟩ : ∃ (p : Fin 512) (n : Fin 2048), j = ix2 p n := ⟨j 0, j 1, eq_ix2 j⟩
    refine (BlockProduct.product_apply (iblk m c 0 t) (iblk m c 1 t) p n).trans ?_
    refine Eq.trans ?_ (result_block_apply m c t p n (ix2 (⟨t.val * 512 + p.val, by omega⟩ : Fin 10240) n) rfl rfl).symm
    refine Eq.trans ?_ (Cert.Spec.weights_shared _ _ _ _ _ _ (⟨t.val * 512 + p.val, by omega⟩ : Fin 8192) n rfl rfl).symm
    unfold Cert.Spec.shared
    refine Finset.sum_congr rfl fun k _ => ?_
    rw [blockA_apply m c t h0 p k ⟨t.val * 512 + p.val, by omega⟩ rfl, blockC_apply m c t k n]
  · rw [outsAt0_B m c t h0 (by omega), PointContents.copy_point]
    funext j
    obtain ⟨p, n, rfl⟩ : ∃ (p : Fin 512) (n : Fin 2048), j = ix2 p n := ⟨j 0, j 1, eq_ix2 j⟩
    refine (blockW_apply m c t (by omega) p n ⟨t.val * 512 + p.val - 8192, by omega⟩ (by show t.val * 512 + p.val - 8192 + 8192 = _; omega)).trans ?_
    refine Eq.trans ?_ (result_block_apply m c t p n (ix2 (⟨t.val * 512 + p.val, by omega⟩ : Fin 10240) n) rfl rfl).symm
    exact (Cert.Spec.weights_individual _ _ _ _ _ _ (⟨t.val * 512 + p.val - 8192, by omega⟩ : Fin 2048) n (by show t.val * 512 + p.val = t.val * 512 + p.val - 8192 + 8192; omega) rfl).symm

/-- An index of the array is in point `t`'s block iff each coordinate is in the block's range on its axis. -/
theorem mem_block (t : Fin cfg0.N) (i : S10240x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v5).slice (win0_3.rect t)).set ↔ _
  rw [View.set_slice_whole, Rect.mem_set_unit]
  exact Iff.rfl

/-- Every index of the array lies in the block of the point `row / 512`, which is written back. -/
theorem covered (i : S10240x2048.Idx) : ∃ t : Fin cfg0.N, (cfg0.win 3).flush t = true ∧ i ∈ ((cfg0.win 3).blk t).view.set := by
  have hi0 : (i 0).val < 10240 := (i 0).isLt
  have hi1 : (i 1).val < 2048 := (i 1).isLt
  have hN : cfg0.N = 20 := N_0
  refine ⟨⟨(i 0).val / 512, by rw [hN]; omega⟩, flush0_3 _, ?_⟩
  obtain ⟨e30, e31, -, -, -, -, -, -⟩ := index_facts ⟨(i 0).val / 512, by rw [hN]; omega⟩
  rw [mem_block]
  intro a
  match a with
  | ⟨0, _⟩ => show win0_3.index _ (0 : Fin 2) * 512 ≤ (i 0).val ∧ (i 0).val < win0_3.index _ (0 : Fin 2) * 512 + 512; rw [e30]; dsimp only; omega
  | ⟨1, _⟩ => show win0_3.index _ (1 : Fin 2) * 2048 ≤ (i 1).val ∧ (i 1).val < win0_3.index _ (1 : Fin 2) * 2048 + 2048; rw [e31]; omega

/-- The first result's array after the run is the specified one. -/
theorem final (c : Dev nD) : (dats m 0 c).arrAt 3 cfg0.N = result m c :=
  (dats m 0 c).arrAt_eq_of_cover 3 (result m c) (fun t _ => flushed_eq m c t) covered

end Cert.KernelIdeal.Blocks

end
-- ==== Proof.KernelRun.lean ====
/-
  The kernel's run with both results named. The call leaves the first result's array at the specified one (the
  twenty blocks cover it). The second result is computed by the host after the call, from the two bias vectors, which
  no block of the call touches: it is the bias followed by the individual bias, as launched. The seven argument
  arrays end as they were launched: the two the call stages are only read, the other five nothing writes.
-/
import proofs.«122061_j28570122453321_2_alg».proof.Proof.Blocks
import Idealize.ShloMosaic.Lib.StableHlo.Run

noncomputable section

open Idealize.ShloMosaic Idealize.ShloMosaic.TcCoe Idealize.SL.Sem
open Idealize.ShloMosaic.Pipeline (Dat)

namespace Cert.KernelIdeal.Results

open Cert.KernelIdeal Cert.KernelIdeal.Gen

variable (m : (ℓ : Loc nD τ sig) → Buf (Elt Ideal) ℓ) (ρ : Dev nD → PrngReg)

/-- The specified second result: the bias followed by the individual bias. -/
abbrev biases (c : Dev nD) : S10240.Idx → EReal :=
  concatenate S10240 0 [⟨S8192, m ((c : Thread nD τ).loc main_arg4)⟩, ⟨S2048, m ((c : Thread nD τ).loc main_arg6)⟩] concatenates_S8192_S2048_S10240_d0

/-- A bias vector is no array of the call, and no host operation before the call writes it: the host's
    concatenation after the call reads it as launched. -/
theorem bias_kept (c : Dev nD) :
    Pipeline.withArrays (cfgs 0).spec c (V0 m c) (fun w => (dats m 0 c).arrAt w (cfgs 0).N) (Proc.devRef .tc main_arg4)
      = m ((c : Thread nD τ).loc main_arg4) :=
  (Pipeline.withArrays_of_ne _ c (V0 m c) _ main_arg4 (by exact (by decide : ∀ w, Pipeline.arrRef spec0 w ≠ main_arg4))).trans (V_main_arg4 m c)

/-- The same for the individual bias. -/
theorem individual_bias_kept (c : Dev nD) :
    Pipeline.withArrays (cfgs 0).spec c (V0 m c) (fun w => (dats m 0 c).arrAt w (cfgs 0).N) (Proc.devRef .tc main_arg6)
      = m ((c : Thread nD τ).loc main_arg6) :=
  (Pipeline.withArrays_of_ne _ c (V0 m c) _ main_arg6 (by exact (by decide : ∀ w, Pipeline.arrRef spec0 w ≠ main_arg6))).trans (V_main_arg6 m c)

/-- What the host's one operation after the call leaves in the second result. -/
theorem tail_eq (c : Dev nD) :
    Pipeline.afterTail₀ cfgs (dats m) 0 (V0 m) [hostOps1] c main_v6 = biases m c := by
  unfold Pipeline.afterTail₀
  show StableHlo.after hostOps1 _ (Proc.devRef .tc main_v6) = _
  after_results
  rw [bias_kept m c, individual_bias_kept m c]

/-- Every weakly fair execution of the kernel's program ends with the two results at the specified arrays and the
    arguments as launched. -/
theorem run : θ_run defs (onTc (τ := τ) (main (F := Ideal))) ⟨m, fun _ => 0, ρ⟩ fun r => ∀ c : Dev nD,
      r.2.mem ((c.tc : Thread nD τ).loc main_v5) = Blocks.result m c
      ∧ r.2.mem ((c.tc : Thread nD τ).loc main_v6) = biases m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 3).trans (Blocks.final m c),
      ((h c).2 main_v6 (Pipeline.mem_restRefs_of main_v6 (by decide) (by decide))).trans (tail_eq m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 2).trans (((dats m 0 c).arrAt_in 2 rfl _).trans ((A_eq m c 2).trans (V_main_arg5 m c))),
      (((h c).2 main_arg6 (Pipeline.mem_restRefs_of main_arg6 (by decide) (by decide))).trans (W_main_arg6 m (dats m) c))⟩)
    (run_main m ρ)

end Cert.KernelIdeal.Results

end
-- ==== Proof.RefValue.lean ====
/-
  The reference's first result is the specified array. Read one operation at a time: its scale vector is
  `s k = ∑ j, B (k, j) * tag (j, 0)`; it scales column `k` of `A` by `s k` and multiplies by `C`, so entry `(r, n)` of
  its product is `∑ k, (A (r, k) * s k) * C (k, n)`, the shared entry with its factors grouped the other way; and the
  concatenation along the rows reads the product in the first 8192 rows and the individual weight, 8192 rows up, below.
-/
import proofs.«122061_j28570122453321_2_alg».proof.Proof.Gen.ReferenceIdeal.Read
import proofs.«122061_j28570122453321_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's scale vector, entry `k`. -/
theorem scale_apply (x0 : (⟨S20x1, .f32⟩ : BufTy).Contents (Elt Ideal)) (x2 : (⟨S256x20, .f32⟩ : BufTy).Contents (Elt Ideal)) (k : Fin 256) :
    val_main_v1 (F := Ideal) x0 x2 (ix1 k) = Cert.Spec.scale x0 x2 k := by
  rw [val_main_v1_apply, val_main_v0_apply]
  unfold Cert.Spec.scale
  refine Finset.sum_congr rfl fun j _ => ?_
  have el : lidx_main_v0 (idx_main_v1 (ix1 k)) j = ix2 k j := funext fun a => Fin.ext (by
    match a with
    | ⟨0, _⟩ => show k.val / 1 = k.val; omega
    | ⟨1, _⟩ => rfl)
  have er : ridx_main_v0 (idx_main_v1 (ix1 k)) j = ix2 j (0 : Fin 1) := funext fun a => Fin.ext (by
    match a with
    | ⟨0, _⟩ => rfl
    | ⟨1, _⟩ => rfl)
  rw [el, er]

/-- The reference's product, entry `(r, n)`: the shared entry. -/
theorem shared_apply (x0 : (⟨S20x1, .f32⟩ : BufTy).Contents (Elt Ideal)) (x1 : (⟨S8192x256, .f32⟩ : BufTy).Contents (Elt Ideal))
    (x2 : (⟨S256x20, .f32⟩ : BufTy).Contents (Elt Ideal)) (x3 : (⟨S256x2048, .f32⟩ : BufTy).Contents (Elt Ideal)) (r : Fin 8192) (n : Fin 2048) :
    val_main_v5 (F := Ideal) x0 x1 x2 x3 (ix2 r n) = Cert.Spec.shared x0 x1 x2 x3 r n := by
  rw [val_main_v5_apply, Cert.Spec.shared_assoc]
  refine Finset.sum_congr rfl fun k _ => ?_
  have el : lidx_main_v5 (ix2 r n) k = ix2 r k := funext fun a => Fin.ext (by
    match a with
    | ⟨0, _⟩ => rfl
    | ⟨1, _⟩ => rfl)
  have er : ridx_main_v5 (ix2 r n) k = ix2 k n := funext fun a => Fin.ext (by
    match a with
    | ⟨0, _⟩ => rfl
    | ⟨1, _⟩ => rfl)
  have es : idx_main_v2 (idx_main_v3 (ix2 r k)) = ix1 k := funext fun a => Fin.ext (by
    match a with
    | ⟨0, _⟩ => rfl)
  rw [el, er, val_main_v4_apply, val_main_v3_apply, val_main_v2_apply, es, scale_apply]
  rfl

/-- The reference's first result is the specified array. -/
theorem weights_eq (x0 : (⟨S20x1, .f32⟩ : BufTy).Contents (Elt Ideal)) (x1 : (⟨S8192x256, .f32⟩ : BufTy).Contents (Elt Ideal))
    (x2 : (⟨S256x20, .f32⟩ : BufTy).Contents (Elt Ideal)) (x3 : (⟨S256x2048, .f32⟩ : BufTy).Contents (Elt Ideal))
    (x5 : (⟨S2048x2048, .f32⟩ : BufTy).Contents (Elt Ideal)) :
    val_main_v6 (F := Ideal) x0 x1 x2 x3 x5 = Cert.Spec.weights x0 x1 x2 x3 x5 := by
  funext i
  obtain ⟨a, b, rfl⟩ : ∃ (a : Fin 10240) (b : Fin 2048), i = ix2 a b := ⟨i 0, i 1, eq_ix2 i⟩
  unfold val_main_v6
  by_cases h : a.val < 8192
  · refine (concatenate_pair_apply_left (t := S10240x2048) (s₁ := S8192x2048) (s₂ := S2048x2048) _ _ _ _ (ix2 a b) rfl (ix2 (⟨a.val, h⟩ : Fin 8192) b) (fun d => by
      match d with
      | ⟨0, _⟩ => rfl
      | ⟨1, _⟩ => rfl)).trans ?_
    rw [shared_apply]
    exact (Cert.Spec.weights_shared x0 x1 x2 x3 x5 (ix2 a b) ⟨a.val, h⟩ b rfl rfl).symm
  · refine (concatenate_pair_apply_right (t := S10240x2048) (s₁ := S8192x2048) (s₂ := S2048x2048) _ _ _ _ (ix2 a b) rfl rfl (ix2 (⟨a.val - 8192, by omega⟩ : Fin 2048) b) (fun d hd => by
      match d with
      | ⟨0, _⟩ => exact absurd rfl hd
      | ⟨1, _⟩ => rfl) (by show a.val - 8192 + 8192 = a.val; omega)).trans ?_
    exact (Cert.Spec.weights_individual x0 x1 x2 x3 x5 (ix2 a b) ⟨a.val - 8192, by omega⟩ b (by show a.val = a.val - 8192 + 8192; omega) rfl).symm

end Cert.ReferenceIdeal.RefValue

end
-- ==== Proof.lean ====
/-
  A weight generator: `w = [ (A · diag s) · C ; W ]` and `b = [ bias ; individual bias ]`, where
  `s k = ∑ j, B (k, j) * tag (j, 0)`, `A` is 8192 × 256, `C` is 256 × 2048 and `W` is the 2048 × 2048 individual weight.

  The reference scales the columns of `A` by `s` and multiplies by `C`: entry `(r, n)` is `∑ k, (A (r, k) * s k) * C (k, n)`.
  The kernel's program scales the ROWS of `C` by `s` on the host and multiplies `A` by that inside one call over twenty
  row blocks of 512 — the first sixteen hold the product, `∑ k, A (r, k) * (s k * C (k, n))`, the last four a copy of
  `W` — so the call writes the whole 10240 × 2048 result and nothing is concatenated afterwards; the biases are
  concatenated on the host by both programs alike.

  Over the extended reals the two products agree term by term because multiplication is associative (at the infinities
  as well: no entry need be finite); the roundings to the narrow format before the kernel's product are the identity
  there, and its zero accumulator adds nothing. The rows below 8192 are the same rows of `W` on both sides.

  The pieces: Proof/Spec.lean states the result as one function of the arguments and proves the regrouping;
  Proof/RefValue.lean reads the reference's operations to it; Proof/ScaledOperand.lean, BlockProduct.lean,
  PointContents.lean and Blocks.lean read the kernel's host prefix, its product, what each kind of grid point leaves, and
  the cover of the result by the twenty blocks; Proof/KernelRun.lean states the kernel's run with both results named.
-/
import proofs.«122061_j28570122453321_2_alg».proof.Defs
import proofs.«122061_j28570122453321_2_alg».proof.Proof.Gen.Kernel
import proofs.«122061_j28570122453321_2_alg».proof.Proof.Gen.Kernel.Frame
import proofs.«122061_j28570122453321_2_alg».proof.Proof.Gen.KernelIdeal
import proofs.«122061_j28570122453321_2_alg».proof.Proof.Gen.KernelIdeal.Frame
import proofs.«122061_j28570122453321_2_alg».proof.Proof.Gen.ReferenceIdeal
import proofs.«122061_j28570122453321_2_alg».proof.Proof.Gen.ReferenceIdeal.Run
import proofs.«122061_j28570122453321_2_alg».proof.Proof.Gen.ReferenceIdeal.Read
import proofs.«122061_j28570122453321_2_alg».proof.Proof.Gen.Pre_finite_inputs
import proofs.«122061_j28570122453321_2_alg».proof.Proof.KernelRun
import proofs.«122061_j28570122453321_2_alg».proof.Proof.RefValue
import Idealize.ShloMosaic.Adequacy
import Idealize.ShloMosaic.Init

noncomputable section

namespace Cert.Proof

open Idealize.ShloMosaic Idealize.SL.Sem

/-- The kernel's program as printed terminates without a fault and leaves its arguments as launched. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is eight host operations in a row: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Reading the kernel's program over the extended reals rewrote none of its operations. -/
theorem preserves : Cert.preserves_Kernel_KernelIdeal := trivial

/-- From arguments that agree, both programs end with the first result at the specified weights and the second at the
    two biases end to end: the kernel's by its twenty blocks, the reference's by its operations read one at a time and
    the regrouping of each term's three factors. -/
theorem algebraic : Cert.algebraic_KernelIdeal_ReferenceIdeal := by
  intro m ρ m' ρ' _ hagree
  refine ⟨fun c => Cert.KernelIdeal.Blocks.result m c, fun c => Cert.KernelIdeal.Results.biases m c,
    Cert.KernelIdeal.Results.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v6_eq, Cert.ReferenceIdeal.RefValue.weights_eq, (hagree c).1, (hagree c).2.1,
      (hagree c).2.2.1, (hagree c).2.2.2.1, (hagree c).2.2.2.2.2.1]
  · rw [(hagree c).2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
